-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3072 : Shape := ⟨2, ![16384, 3072]⟩
abbrev S3072x3072 : Shape := ⟨2, ![3072, 3072]⟩
abbrev S3072 : Shape := ⟨1, ![3072]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S3072x3072 : S_.BroadcastsInDim S3072x3072 (![] : Fin 0 → Fin S3072x3072.rank)
  reducesTo_S3072x3072_S_d0_1 : S3072x3072.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_v13 : IVec S_ 1) (main_v16 : IVec S3072x3072 1) : IVec S_ 1 :=
  let main_c_5 : IVec S_ 1 := constantI S_ 1 1#1
  let main_v17 : IVec S_ 1 := (fun x v => Host.reduce IntOp.andi x v reducesTo_S3072x3072_S_d0_1 h_S_) main_v16 main_c_5
  let main_v18 : IVec S_ 1 := andi main_v13 main_v17
  main_v18

def fn {F : FTy → Type} [FloatOps F] (main_arg0 : FVec F S16384x3072 .f32) (main_arg1 : FVec F S3072x3072 .f32) (main_arg2 : FVec F S3072 .f32) (main_arg3 : FVec F S3072x3072 .f32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S3072x3072 .f32 := Host.absf main_arg1
  let main_cst_0 : FVec F S_ .f32 := constant S_ .f32 0x7F800000#32
  let main_v5 : FVec F S3072x3072 .f32 := broadcastInDim S3072x3072 ![] bcast_S_S3072x3072 main_cst_0
  let main_v6 : IVec S3072x3072 1 := cmpf .olt main_v4 main_v5
  let main_c_1 : IVec S_ 1 := constantI S_ 1 1#1
  let main_v7 : IVec S_ 1 := (fun x v => Host.reduce IntOp.andi x v reducesTo_S3072x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S3072x3072 .f32 := Host.absf main_arg3
  let main_cst_4 : FVec F S_ .f32 := constant S_ .f32 0x7F800000#32
  let main_v15 : FVec F S3072x3072 .f32 := broadcastInDim S3072x3072 ![] bcast_S_S3072x3072 main_cst_4
  let main_v16 : IVec S3072x3072 1 := cmpf .olt main_v14 main_v15
  fn_part1 (F := F) main_v13 main_v16
-- ==== Kernel.lean ====
abbrev S16384x3072 : Shape := ⟨2, ![16384, 3072]⟩
abbrev S3072x3072 : Shape := ⟨2, ![3072, 3072]⟩
abbrev S3072 : Shape := ⟨1, ![3072]⟩
abbrev S3072x256 : Shape := ⟨2, ![3072, 256]⟩
abbrev S256x3072 : Shape := ⟨2, ![256, 3072]⟩
abbrev S1x3072 : Shape := ⟨2, ![1, 3072]⟩

abbrev nBuf : Space → Nat
  | .hbm => 7
  | .vmem => 12
  | .smem => 0
  | _ => 0

abbrev bufTy : (tb : Table) → Fin (tcTables nBuf tb) → BufTy
  | .hbm, ⟨0, _⟩ => ⟨S16384x3072, .f32⟩
  | .hbm, ⟨1, _⟩ => ⟨S3072x3072, .f32⟩
  | .hbm, ⟨2, _⟩ => ⟨S3072, .f32⟩
  | .hbm, ⟨3, _⟩ => ⟨S3072x3072, .f32⟩
  | .hbm, ⟨4, _⟩ => ⟨S3072x3072, .bf16⟩
  | .hbm, ⟨5, _⟩ => ⟨S1x3072, .f32⟩
  | .hbm, ⟨6, _⟩ => ⟨S16384x3072, .f32⟩
  | .local _ .vmem, ⟨0, _⟩ => ⟨S3072x256, .f32⟩
  | .local _ .vmem, ⟨1, _⟩ => ⟨S3072x256, .f32⟩
  | .local _ .vmem, ⟨2, _⟩ => ⟨S256x3072, .f32⟩
  | .local _ .vmem, ⟨3, _⟩ => ⟨S256x3072, .f32⟩
  | .local _ .vmem, ⟨4, _⟩ => ⟨S256x3072, .bf16⟩
  | .local _ .vmem, ⟨5, _⟩ => ⟨S256x3072, .bf16⟩
  | .local _ .vmem, ⟨6, _⟩ => ⟨S256x3072, .f32⟩
  | .local _ .vmem, ⟨7, _⟩ => ⟨S256x3072, .f32⟩
  | .local _ .vmem, ⟨8, _⟩ => ⟨S3072x3072, .bf16⟩
  | .local _ .vmem, ⟨9, _⟩ => ⟨S1x3072, .f32⟩
  | .local _ .vmem, ⟨10, _⟩ => ⟨S256x3072, .f32⟩
  | .local _ .vmem, ⟨11, _⟩ => ⟨S256x3072, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3072x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x3072 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S3072x256_S3072x256_0_0 : ∀ a, (![0, 0] : Fin 2 → Nat) a + S3072x256.size a ≤ S3072x256.size a
  h_S3072x256 : 0 < S3072x256.numel
  transposes_S3072x256_p1_0_S256x3072 : S3072x256.Transposes [1, 0] S256x3072
  inb_S256x3072_S256x3072_0_0 : ∀ a, (![0, 0] : Fin 2 → Nat) a + S256x3072.size a ≤ S256x3072.size a
  h_S256x3072 : 0 < S256x3072.numel
  bitsLt_bf16_f32 : FTy.bits .bf16 < FTy.bits .f32
  packedbf16_S256x3072_S256x3072_0_0 : (Rect.unit (s := S256x3072) ![0, 0] S256x3072.size inb_S256x3072_S256x3072_0_0).PackedRows (EltTy.packing .bf16)
  shapeCasts_S3072_S1x3072 : S3072.ShapeCasts S1x3072
  inb_S3072x3072_S3072x3072_0_0 : ∀ a, (![0, 0] : Fin 2 → Nat) a + S3072x3072.size a ≤ S3072x3072.size a
  h_S3072x3072 : 0 < S3072x3072.numel
  shapeCasts_S3072x3072_S3072x3072 : S3072x3072.ShapeCasts S3072x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  dot_S256x3072_S3072x3072_S256x3072_1_0_0_1_n_n_wf : DotDims.WF S256x3072 S3072x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x256.size a ≤ S3072x3072.size a
  hwx0_0 : ∀ i : grid0.Coords, EltTy.bits .f32 = 32 ∨ (Rect.block (s := S3072x3072) S3072x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3072.size a ≤ S3072x3072.size a
  hwx0_1 : ∀ i : grid0.Coords, EltTy.bits .f32 = 32 ∨ (Rect.block (s := S3072x3072) S256x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S3072x3072.size a
  hwx0_2 : ∀ i : grid0.Coords, EltTy.bits .bf16 = 32 ∨ (Rect.block (s := S3072x3072) S256x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3072.size a ≤ S16384x3072.size a
  hwx1_0 : ∀ i : grid1.Coords, EltTy.bits .f32 = 32 ∨ (Rect.block (s := S16384x3072) S256x3072.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3072x3072.size a ≤ S3072x3072.size a
  hwx1_1 : ∀ i : grid1.Coords, EltTy.bits .bf16 = 32 ∨ (Rect.block (s := S3072x3072) S3072x3072.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x3072.size a ≤ S1x3072.size a
  hwx1_2 : ∀ i : grid1.Coords, EltTy.bits .f32 = 32 ∨ (Rect.block (s := S1x3072) S1x3072.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x3072.size a ≤ S16384x3072.size a
  hwx1_3 : ∀ i : grid1.Coords, EltTy.bits .f32 = 32 ∨ (Rect.block (s := S16384x3072) S256x3072.size (cc1_transform_3 i) (hinb1_3 i)).WholeWords (EltTy.packing .f32)

variable [Facts₀]

def dot_S256x3072_S3072x3072_S256x3072_1_0_0_1_n_n : DotDims S256x3072 S3072x3072 S256x3072 where
  lhsContracting := [1]
  rhsContracting := [0]
  lhsNonContracting := [0]
  rhsNonContracting := [1]
  lhsBatch := []
  rhsBatch := []
  wf := dot_S256x3072_S3072x3072_S256x3072_1_0_0_1_n_n_wf

abbrev win0_0 : Pipeline.Window sig grid0 :=
  Pipeline.Window.ofSpec (Memref.whole main_arg3) S3072x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S3072x3072.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x3072.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x3072.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x3072 : Shape := ⟨2, ![16384, 3072]⟩
abbrev S3072x3072 : Shape := ⟨2, ![3072, 3072]⟩
abbrev S3072 : Shape := ⟨1, ![3072]⟩
abbrev S1x3072 : Shape := ⟨2, ![1, 3072]⟩

abbrev nBuf : Space → Nat
  | .hbm => 10
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S3072x3072, .f32⟩
  | .hbm, ⟨2, _⟩ => ⟨S3072, .f32⟩
  | .hbm, ⟨3, _⟩ => ⟨S3072x3072, .f32⟩
  | .hbm, ⟨4, _⟩ => ⟨S3072x3072, .f32⟩
  | .hbm, ⟨5, _⟩ => ⟨S3072x3072, .f32⟩
  | .hbm, ⟨6, _⟩ => ⟨S16384x3072, .f32⟩
  | .hbm, ⟨7, _⟩ => ⟨S1x3072, .f32⟩
  | .hbm, ⟨8, _⟩ => ⟨S16384x3072, .f32⟩
  | .hbm, ⟨9, _⟩ => ⟨S16384x3072, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S3072x3072_S3072x3072_1_0 : S3072x3072.Transposes [1, 0] S3072x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  dot_S16384x3072_S3072x3072_S16384x3072_1_0_0_1_n_n_wf : DotDims.WF S16384x3072 S3072x3072 S16384x3072 [1] [0] [0] [1] [] []

variable [Facts₀]

def dot_S16384x3072_S3072x3072_S16384x3072_1_0_0_1_n_n : DotDims S16384x3072 S3072x3072 S16384x3072 where
  lhsContracting := [1]
  rhsContracting := [0]
  lhsNonContracting := [0]
  rhsNonContracting := [1]
  lhsBatch := []
  rhsBatch := []
  wf := dot_S16384x3072_S3072x3072_S16384x3072_1_0_0_1_n_n_wf

class Facts : Prop extends Facts₀ where

variable [Facts]
-- ==== Proof.MaskedWeight.lean ====
/-
  The first kernel region: the masked weight.

  The region's grid has twelve points. At point t the mask window's block is the column slab
  mask[:, 256·t .. 256·t+255] (a 3072×256 block), the weight window's block is the row slab
  w[256·t .. 256·t+255, :] (a 256×3072 block), and the body stores into the output's row slab t the product of the
  transposed mask block with the weight block. Entry (p, q) of that product is mask(q, 256·t + p) · w(256·t + p, q), so
  row slab t of the output is row slab t of the one array

      weff(d, u) = mask(u, d) · w(d, u).

  The twelve row slabs tile the 3072×3072 output, hence after the region the output array is weff of the two arrays the
  region found at entry. The rounding to the narrower float format on the way out is the identity over the extended reals.
-/
import proofs.«175636_j25434796327644_2_alg».proof.Proof.Gen.KernelIdeal.Frame
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.MaskedWeight

open Cert.KernelIdeal Cert.KernelIdeal.Gen

/-- The masked weight: entry (d, u) is mask(u, d) · w(d, u). -/
def weff (mask w : S3072x3072.Idx → EReal) : S3072x3072.Idx → EReal :=
  fun i => mask (ix2 (i 1) (i 0)) * w i

theorem weff_apply (mask w : S3072x3072.Idx → EReal) (d u : Fin 3072) :
    weff mask w (ix2 d u) = mask (ix2 u d) * w (ix2 d u) := rfl

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at (p, q): the transposed mask block's entry times the weight block's entry. -/
theorem stored_apply (x0 : Vec Ideal S3072x256 .f32) (x1 : Vec Ideal S256x3072 .f32) (p : Fin 256) (q : Fin 3072) :
    k0_pay1 x0 x1 (ix2 p q) = x0 (ix2 q p) * x1 (ix2 p q) := by
  unfold k0_pay1
  rw [truncf_apply, mulf_apply, transpose_ix2_apply]

/-- The block indices over the grid: the mask window moves along its columns, the weight and output windows along
    their rows, each to slab t at point t. -/
theorem block_indices : ∀ t : Fin cfg0.N, win0_0.index t (0 : Fin 2) = 0 ∧ win0_0.index t (1 : Fin 2) = t.val
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The mask block at point t, entry (r, s), is mask(r, 256·t + s). -/
theorem mask_block (c : Dev nD) (t : Fin cfg0.N) (y : S3072x256.Idx) (i : S3072x3072.Idx)
    (h0 : (i 0).val = (y 0).val) (h1 : (i 1).val = t.val * 256 + (y 1).val) :
    (iblk0 V c 0 t : Vec Ideal S3072x256 .f32) y = (V c main_arg3 : S3072x3072.Idx → EReal) i := by
  obtain ⟨e0, e1, -⟩ := block_indices t
  show V c main_arg3 (((cfg0.win 0).blk t).view.emb y) = V c main_arg3 i
  refine congrArg _ (funext fun a => Fin.ext ?_)
  match a with
  | ⟨0, _⟩ => show win0_0.index t (0 : Fin 2) * 3072 + 1 * (y 0).val = (i 0).val; rw [e0, h0]; omega
  | ⟨1, _⟩ => show win0_0.index t (1 : Fin 2) * 256 + 1 * (y 1).val = (i 1).val; rw [e1, h1]; omega

/-- The weight block at point t, entry (r, s), is w(256·t + r, s). -/
theorem weight_block (c : Dev nD) (t : Fin cfg0.N) (y : S256x3072.Idx) (i : S3072x3072.Idx)
    (h0 : (i 0).val = t.val * 256 + (y 0).val) (h1 : (i 1).val = (y 1).val) :
    (iblk0 V c 1 t : Vec Ideal S256x3072 .f32) y = (V c main_arg1 : S3072x3072.Idx → EReal) i := by
  obtain ⟨-, -, e2, e3, -⟩ := block_indices t
  show V c main_arg1 (((cfg0.win 1).blk t).view.emb y) = V c main_arg1 i
  refine congrArg _ (funext fun a => Fin.ext ?_)
  match a with
  | ⟨0, _⟩ => show win0_1.index t (0 : Fin 2) * 256 + 1 * (y 0).val = (i 0).val; rw [e2, h0]; omega
  | ⟨1, _⟩ => show win0_1.index t (1 : Fin 2) * 3072 + 1 * (y 1).val = (i 1).val; rw [e3, h1]; omega

/-- What point t stores at (p, q) is weff at the place (256·t + p, q) of the output array. -/
theorem stored_at_point (c : Dev nD) (t : Fin cfg0.N) (j : S256x3072.Idx) :
    k0_pay1 (iblk0 V c 0 t) (iblk0 V c 1 t) j
      = weff (V c main_arg3) (V c main_arg1) (((cfg0.win 2).blk t).view.emb j) := by
  obtain ⟨p, q, rfl⟩ : ∃ (p : Fin 256) (q : Fin 3072), j = ix2 p q := ⟨j 0, j 1, eq_ix2 j⟩
  obtain ⟨-, -, -, -, e4, e5⟩ := block_indices t
  refine (stored_apply (iblk0 V c 0 t) (iblk0 V c 1 t) p q).trans ?_
  unfold weff
  have hr : ((((cfg0.win 2).blk t).view.emb (ix2 p q)) 0).val = t.val * 256 + p.val := by
    show win0_2.index t (0 : Fin 2) * 256 + 1 * p.val = _; rw [e4]; omega
  have hc : ((((cfg0.win 2).blk t).view.emb (ix2 p q)) 1).val = q.val := by
    show win0_2.index t (1 : Fin 2) * 3072 + 1 * q.val = _; rw [e5]; omega
  refine congrArg₂ (· * ·) ?_ ?_
  · exact mask_block V c t (ix2 q p) _ hc hr
  · exact weight_block V c t (ix2 p q) _ hr hc

/-- What point t writes back is row slab t of weff of the arrays the region found. -/
theorem flushed (c : Dev nD) (t : Fin cfg0.N) :
    (dat0 V c).flushed 2 t = ((cfg0.win 2).blk t).view.read (Elt Ideal) (weff (V c main_arg3) (V c main_arg1)) := by
  show (cfg0.win 2).cut (grid0.coords t) ((dat0 V c).after 2 t) = _
  rw [after0_2]
  unfold out0_2
  rw [View.canon_unit_zero zero_offsets]
  simp only [View.ld_unit_zero (S := S3072x256) zero_offsets, View.ld_unit_zero (S := S256x3072) zero_offsets]
  funext j
  exact stored_at_point V c t j

/-- An index of the output array lies in point t's block iff each coordinate lies in the block's range. -/
theorem mem_block (t : Fin cfg0.N) (i : S3072x3072.Idx) :
    i ∈ ((cfg0.win 2).blk t).view.set ↔ ∀ a : Fin 2, win0_2.index t a * S256x3072.size a ≤ (i a).val ∧ (i a).val < win0_2.index t a * S256x3072.size a + S256x3072.size a := by
  show i ∈ ((View.whole main_v0).slice (win0_2.rect t)).set ↔ _
  rw [View.set_slice_whole, Rect.mem_set_unit]
  exact Iff.rfl

/-- The twelve row slabs cover the output: row r lies in slab r / 256. -/
theorem covered (i : S3072x3072.Idx) :
    ∃ t : Fin cfg0.N, (cfg0.win 2).flush t = true ∧ i ∈ ((cfg0.win 2).blk t).view.set := by
  have hi0 : (i 0).val < 3072 := (i 0).isLt
  have hi1 : (i 1).val < 3072 := (i 1).isLt
  have hN : cfg0.N = 12 := N_0
  obtain ⟨t, ht⟩ : ∃ t : Fin cfg0.N, t.val = (i 0).val / 256 := ⟨⟨(i 0).val / 256, by rw [hN]; omega⟩, rfl⟩
  obtain ⟨-, -, -, -, e4, e5⟩ := block_indices t
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; rw [e4, ht]; omega
  | ⟨1, _⟩ => show win0_2.index t (1 : Fin 2) * 3072 ≤ (i 1).val ∧ (i 1).val < win0_2.index t (1 : Fin 2) * 3072 + 3072; rw [e5]; omega

/-- After the region the output array is the masked weight of the mask and weight arrays the region found. -/
theorem final (c : Dev nD) : (dat0 V c).arrAt 2 cfg0.N = weff (V c main_arg3) (V c main_arg1) :=
  (dat0 V c).arrAt_eq_of_cover 2 (weff (V c main_arg3) (V c main_arg1)) (fun t _ => flushed V c t) covered

end Cert.KernelIdeal.MaskedWeight

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.ProductBias.lean ====
/-
  The second kernel region: the product with the masked weight, plus the bias row.

  The region's grid has sixty-four points. At point t the input window's block is the row slab x[256·t .. 256·t+255, :],
  the weight window's block is the whole 3072×3072 array the region finds in the first region's output buffer, the
  bias window's block is the whole 1×3072 row, and the body stores into the output's row slab t the matrix product of the
  input block with the weight (accumulated from zero) plus the bias row repeated down the rows. Entry (p, q) of that is
  Σ_k x(256·t + p, k) · wm(k, q) + brow(0, q), so row slab t of the output is row slab t of the one array

      prodBias(r, q) = Σ_k x(r, k) · wm(k, q) + brow(0, q).

  The sixty-four row slabs tile the 16384×3072 output, hence after the region the output array is prodBias of the three
  arrays the region found at entry. The rounding of the input to the narrower float format before the product is the
  identity over the extended reals.
-/
import proofs.«175636_j25434796327644_2_alg».proof.Proof.Gen.KernelIdeal.Frame
import proofs.«175636_j25434796327644_2_alg».proof.Proof.LibMatmulPlain
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.ProductBias

open Cert.KernelIdeal Cert.KernelIdeal.Gen

/-- The product of x with a weight array, plus a bias row: entry (r, q) is Σ_k x(r, k) · wm(k, q) + brow(0, q). -/
def prodBias (x : S16384x3072.Idx → EReal) (wm : S3072x3072.Idx → EReal) (brow : S1x3072.Idx → EReal) :
    S16384x3072.Idx → EReal :=
  fun i => (∑ k : Fin 3072, x (ix2 (i 0) k) * wm (ix2 k (i 1))) + brow (ix2 (0 : Fin 1) (i 1))

theorem prodBias_apply (x : S16384x3072.Idx → EReal) (wm : S3072x3072.Idx → EReal) (brow : S1x3072.Idx → EReal)
    (r : Fin 16384) (q : Fin 3072) :
    prodBias x wm brow (ix2 r q) = (∑ k : Fin 3072, x (ix2 r k) * wm (ix2 k q)) + brow (ix2 (0 : Fin 1) q) := rfl

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at (p, q): the row of the input block against the column of the weight, plus the bias. -/
theorem stored_apply (x0 : Vec Ideal S256x3072 .f32) (x1 : Vec Ideal S3072x3072 .bf16) (x2 : Vec Ideal S1x3072 .f32)
    (p : Fin 256) (q : Fin 3072) :
    k1_pay1 x0 x1 x2 (ix2 p q) = (∑ k : Fin 3072, x0 (ix2 p k) * x1 (ix2 k q)) + x2 (ix2 (0 : Fin 1) q) := by
  unfold k1_pay1
  rw [addf_apply, broadcastTo_1b_ab_apply, shapeCast_self, shapeCast_self]
  refine congrArg₂ (· + ·) ?_ rfl
  exact Cert.LibMatmulPlain.matmul_plain_zero_apply dot_S256x3072_S3072x3072_S256x3072_1_0_0_1_n_n rfl none
    (truncf .bf16 x0 bitsLt_bf16_f32) x1 p q

/-- The block indices over the grid: the input and output windows move along their rows to slab t at point t; the
    weight and bias windows stay at their whole arrays. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point t, entry (r, s), is x(256·t + r, s). -/
theorem input_block (c : Dev nD) (t : Fin cfg1.N) (y : S256x3072.Idx) (i : S16384x3072.Idx)
    (h0 : (i 0).val = t.val * 256 + (y 0).val) (h1 : (i 1).val = (y 1).val) :
    (iblk1 V c 0 t : Vec Ideal S256x3072 .f32) y = (V c main_arg0 : S16384x3072.Idx → EReal) i := by
  obtain ⟨e0, e1, -⟩ := block_indices t
  show V c main_arg0 (((cfg1.win 0).blk t).view.emb y) = V c main_arg0 i
  refine congrArg _ (funext fun a => Fin.ext ?_)
  match a with
  | ⟨0, _⟩ => show win1_0.index t (0 : Fin 2) * 256 + 1 * (y 0).val = (i 0).val; rw [e0, h0]; omega
  | ⟨1, _⟩ => show win1_0.index t (1 : Fin 2) * 3072 + 1 * (y 1).val = (i 1).val; rw [e1, h1]; omega

/-- The weight block at any point is the whole weight array. -/
theorem weight_block (c : Dev nD) (t : Fin cfg1.N) (y : S3072x3072.Idx) (i : S3072x3072.Idx)
    (h0 : (i 0).val = (y 0).val) (h1 : (i 1).val = (y 1).val) :
    (iblk1 V c 1 t : Vec Ideal S3072x3072 .bf16) y = (V c main_v0 : S3072x3072.Idx → EReal) i := by
  obtain ⟨-, -, e2, e3, -⟩ := block_indices t
  show V c main_v0 (((cfg1.win 1).blk t).view.emb y) = V c main_v0 i
  refine congrArg _ (funext fun a => Fin.ext ?_)
  match a with
  | ⟨0, _⟩ => show win1_1.index t (0 : Fin 2) * 3072 + 1 * (y 0).val = (i 0).val; rw [e2, h0]; omega
  | ⟨1, _⟩ => show win1_1.index t (1 : Fin 2) * 3072 + 1 * (y 1).val = (i 1).val; rw [e3, h1]; omega

/-- The bias block at any point is the whole bias row. -/
theorem bias_block (c : Dev nD) (t : Fin cfg1.N) (y : S1x3072.Idx) (i : S1x3072.Idx)
    (h0 : (i 0).val = (y 0).val) (h1 : (i 1).val = (y 1).val) :
    (iblk1 V c 2 t : Vec Ideal S1x3072 .f32) y = (V c main_v1 : S1x3072.Idx → EReal) i := by
  obtain ⟨-, -, -, -, e4, e5, -⟩ := block_indices t
  show V c main_v1 (((cfg1.win 2).blk t).view.emb y) = V c main_v1 i
  refine congrArg _ (funext fun a => Fin.ext ?_)
  match a with
  | ⟨0, _⟩ => show win1_2.index t (0 : Fin 2) * 1 + 1 * (y 0).val = (i 0).val; rw [e4, h0]; omega
  | ⟨1, _⟩ => show win1_2.index t (1 : Fin 2) * 3072 + 1 * (y 1).val = (i 1).val; rw [e5, h1]; omega

/-- What point t stores at (p, q) is prodBias at the place (256·t + p, q) of the output array. -/
theorem stored_at_point (c : Dev nD) (t : Fin cfg1.N) (j : S256x3072.Idx) :
    k1_pay1 (iblk1 V c 0 t) (iblk1 V c 1 t) (iblk1 V c 2 t) j
      = prodBias (V c main_arg0) (V c main_v0) (V c main_v1) (((cfg1.win 3).blk t).view.emb j) := by
  obtain ⟨p, q, rfl⟩ : ∃ (p : Fin 256) (q : Fin 3072), j = ix2 p q := ⟨j 0, j 1, eq_ix2 j⟩
  obtain ⟨-, -, -, -, -, -, e6, e7⟩ := block_indices t
  refine (stored_apply (iblk1 V c 0 t) (iblk1 V c 1 t) (iblk1 V c 2 t) p q).trans ?_
  unfold prodBias
  have hr : ((((cfg1.win 3).blk t).view.emb (ix2 p q)) 0).val = t.val * 256 + p.val := by
    show win1_3.index t (0 : Fin 2) * 256 + 1 * p.val = _; rw [e6]; omega
  have hc : ((((cfg1.win 3).blk t).view.emb (ix2 p q)) 1).val = q.val := by
    show win1_3.index t (1 : Fin 2) * 3072 + 1 * q.val = _; rw [e7]; omega
  refine congrArg₂ (· + ·) (Finset.sum_congr rfl fun k _ => congrArg₂ (· * ·) ?_ ?_) ?_
  · exact input_block V c t (ix2 p k) _ hr rfl
  · exact weight_block V c t (ix2 k q) _ rfl hc
  · exact bias_block V c t (ix2 (0 : Fin 1) q) _ rfl hc

/-- What point t writes back is row slab t of prodBias of the arrays the region found. -/
theorem flushed (c : Dev nD) (t : Fin cfg1.N) :
    (dat1 V c).flushed 3 t
      = ((cfg1.win 3).blk t).view.read (Elt Ideal) (prodBias (V c main_arg0) (V c main_v0) (V c main_v1)) := by
  show (cfg1.win 3).cut (grid1.coords t) ((dat1 V c).after 3 t) = _
  rw [after1_3]
  unfold out1_3
  rw [View.canon_unit_zero zero_offsets]
  simp only [View.ld_unit_zero (S := S256x3072) zero_offsets, View.ld_unit_zero (S := S3072x3072) zero_offsets,
    View.ld_unit_zero (S := S1x3072) zero_offsets]
  funext j
  exact stored_at_point V c t j

/-- An index of the output array lies in point t's block iff each coordinate lies in the block's range. -/
theorem mem_block (t : Fin cfg1.N) (i : S16384x3072.Idx) :
    i ∈ ((cfg1.win 3).blk t).view.set ↔ ∀ a : Fin 2, win1_3.index t a * S256x3072.size a ≤ (i a).val ∧ (i a).val < win1_3.index t a * S256x3072.size a + S256x3072.size a := by
  show i ∈ ((View.whole main_v2).slice (win1_3.rect t)).set ↔ _
  rw [View.set_slice_whole, Rect.mem_set_unit]
  exact Iff.rfl

/-- The sixty-four row slabs cover the output: row r lies in slab r / 256. -/
theorem covered (i : S16384x3072.Idx) :
    ∃ t : Fin cfg1.N, (cfg1.win 3).flush t = true ∧ i ∈ ((cfg1.win 3).blk t).view.set := by
  have hi0 : (i 0).val < 16384 := (i 0).isLt
  have hi1 : (i 1).val < 3072 := (i 1).isLt
  have hN : cfg1.N = 64 := N_1
  obtain ⟨t, ht⟩ : ∃ t : Fin cfg1.N, t.val = (i 0).val / 256 := ⟨⟨(i 0).val / 256, by rw [hN]; omega⟩, rfl⟩
  obtain ⟨-, -, -, -, -, -, e6, e7⟩ := block_indices t
  refine ⟨t, flush1_3 t, ?_⟩
  rw [mem_block]
  intro a
  match a with
  | ⟨0, _⟩ => show win1_3.index t (0 : Fin 2) * 256 ≤ (i 0).val ∧ (i 0).val < win1_3.index t (0 : Fin 2) * 256 + 256; rw [e6, ht]; omega
  | ⟨1, _⟩ => show win1_3.index t (1 : Fin 2) * 3072 ≤ (i 1).val ∧ (i 1).val < win1_3.index t (1 : Fin 2) * 3072 + 3072; rw [e7]; omega

/-- After the region the output array is prodBias of the input, weight and bias arrays the region found. -/
theorem final (c : Dev nD) :
    (dat1 V c).arrAt 3 cfg1.N = prodBias (V c main_arg0) (V c main_v0) (V c main_v1) :=
  (dat1 V c).arrAt_eq_of_cover 3 (prodBias (V c main_arg0) (V c main_v0) (V c main_v1)) (fun t _ => flushed V c t) covered

end Cert.KernelIdeal.ProductBias

end
-- ==== Proof.Spec.lean ====
/-
  The function both programs compute.

  For an input x (16384×3072), a weight w (3072×3072), a bias b (3072) and a mask (3072×3072), the result at
  (r, u) is

      Σ_d x(r, d) · (mask(u, d) · w(d, u)) + b(u):

  a dense product of x with the weight masked by the transposed mask, plus the bias along the columns. Each program
  forms the masked weight first and then the product, in this grouping, so no law of the extended reals beyond
  reading both sides at an index is needed to join them.
-/
import Idealize.ShloMosaic.PureOps.Ideal
import Idealize.ShloMosaic.Lib.ValueIdx

noncomputable section

open scoped BigOperators

namespace Cert.MaskedDense

open Idealize.ShloMosaic Idealize.ShloMosaic.ValueIdx

/-- The masked dense layer: entry (r, u) is Σ_d x(r, d) · (mask(u, d) · w(d, u)) + b(u). -/
def maskedDense (x : (⟨2, ![16384, 3072]⟩ : Shape).Idx → EReal) (w : (⟨2, ![3072, 3072]⟩ : Shape).Idx → EReal)
    (b : (⟨1, ![3072]⟩ : Shape).Idx → EReal) (mask : (⟨2, ![3072, 3072]⟩ : Shape).Idx → EReal) :
    (⟨2, ![16384, 3072]⟩ : Shape).Idx → EReal :=
  fun i => (∑ d : Fin 3072, x (ix2 (i 0) d) * (mask (ix2 (i 1) d) * w (ix2 d (i 1)))) + b (ix1 (i 1))

end Cert.MaskedDense

end
-- ==== Proof.KernelRun.lean ====
/-
  The kernel program's run, with its result read as the masked dense layer.

  The program is two kernel regions with one host operation between them: the first region writes the masked
  weight, the host operation lays the bias vector out as a 1×3072 row, the second region writes the result.
  Following the buffers through the three segments: the second region finds x as launched (nothing before it writes
  x), the first region's output (the masked weight of the launched mask and weight), and the bias row (the launched
  bias re-laid); its output is the product of x with the masked weight plus the bias row, which is the masked dense
  layer of the four launched arrays.
-/
import proofs.«175636_j25434796327644_2_alg».proof.Proof.Gen.KernelIdeal.Frame
import proofs.«175636_j25434796327644_2_alg».proof.Proof.MaskedWeight
import proofs.«175636_j25434796327644_2_alg».proof.Proof.ProductBias
import proofs.«175636_j25434796327644_2_alg».proof.Proof.Spec
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo
open Cert.KernelIdeal Cert.KernelIdeal.Gen Cert.MaskedDense

/-! ## The run, the result buffer named -/

section Named

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at what the last
    segment boundary holds there, and the four arguments end as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Named

/-! ## What the second region finds, and the result -/

section Value

variable (m : (ℓ : Loc nD τ sig) → Buf (Elt Ideal) ℓ) (ρ : Dev nD → PrngReg)

/-- The second region finds x as launched: neither the first region nor the host operation writes it. -/
theorem entry_input (c : Dev nD) : V2 m ρ c main_arg0 = m ((c : Thread nD τ).loc main_arg0) := by
  show StableHlo.after hostOps1 (W1 m ρ c) (Proc.devRef .tc main_arg0) = _
  dsimp only [hostOps1]
  after_results
  exact W1_of_ne m ρ c main_arg0 (by decide)

/-- The second region finds, in the first region's output buffer, the masked weight of the launched mask and weight. -/
theorem entry_weight (c : Dev nD) :
    V2 m ρ c main_v0 = MaskedWeight.weff (m ((c : Thread nD τ).loc main_arg3)) (m ((c : Thread nD τ).loc main_arg1)) := by
  show StableHlo.after hostOps1 (W1 m ρ c) (Proc.devRef .tc main_v0) = _
  dsimp only [hostOps1]
  after_results
  exact (W1_arr m ρ c 2).trans (MaskedWeight.final (V0 m ρ) c)

/-- The second region finds the launched bias vector laid out as a 1×3072 row. -/
theorem entry_bias (c : Dev nD) :
    V2 m ρ c main_v1 = shapeCast S1x3072 (m ((c : Thread nD τ).loc main_arg2)) shapeCasts_S3072_S1x3072 := by
  show StableHlo.after hostOps1 (W1 m ρ c) (Proc.devRef .tc main_v1) = _
  dsimp only [hostOps1]
  after_results
  rw [W1_of_ne m ρ c main_arg2 (by decide)]
  rfl

/-- The product of x with the masked weight plus the bias laid out as a row is the masked dense layer. -/
theorem prodBias_weff (x : S16384x3072.Idx → EReal) (w : S3072x3072.Idx → EReal) (b : S3072.Idx → EReal)
    (mask : S3072x3072.Idx → EReal) :
    ProductBias.prodBias x (MaskedWeight.weff mask w) (shapeCast S1x3072 b shapeCasts_S3072_S1x3072)
      = maskedDense x w b mask := by
  funext i
  obtain ⟨r, q, rfl⟩ : ∃ (r : Fin 16384) (q : Fin 3072), i = ix2 r q := ⟨i 0, i 1, eq_ix2 i⟩
  exact congrArg₂ (· + ·) rfl (shapeCast_a_1a_apply b shapeCasts_S3072_S1x3072 (0 : Fin 1) q)

/-- The result buffer at the last segment boundary is the masked dense layer of the four launched arrays. -/
theorem result (c : Dev nD) :
    W3 m ρ c (Proc.devRef .tc main_v2)
      = maskedDense (m ((c : Thread nD τ).loc main_arg0)) (m ((c : Thread nD τ).loc main_arg1))
          (m ((c : Thread nD τ).loc main_arg2)) (m ((c : Thread nD τ).loc main_arg3)) := by
  refine (W3_arr m ρ c 3).trans ((ProductBias.final (V2 m ρ) c).trans ?_)
  rw [entry_input m ρ c, entry_weight m ρ c, entry_bias m ρ c]
  exact prodBias_weff _ _ _ _

/-- The kernel program's run: it terminates without a fault, its result is the masked dense layer of the launched
    arrays, and the arguments end as launched. -/
theorem run : θ_run defs (onTc (τ := τ) (main (F := Ideal))) ⟨m, fun _ => 0, ρ⟩ (fun r => ∀ c : Dev nD,
      r.2.mem ((c.tc : Thread nD τ).loc main_v2)
        = maskedDense (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result m ρ c), (h c).2⟩) (run_named m ρ)

end Value

end Cert.KernelIdeal.Whole

end
-- ==== Proof.ReferenceValue.lean ====
/-
  The reference computes the masked dense layer.

  The reference transposes the mask, multiplies it entry by entry with the weight, takes the product of x with the
  result (contracting x's columns with the masked weight's rows), places the bias as a row and repeats it down the
  rows, and adds. Read at (r, u): the transposed mask at (d, u) is mask(u, d); the product is the sum over d of
  x(r, d) times the masked weight at (d, u); the repeated bias row at (r, u) is b(u).
-/
import proofs.«175636_j25434796327644_2_alg».proof.Proof.Gen.ReferenceIdeal.Read
import proofs.«175636_j25434796327644_2_alg».proof.Proof.Spec

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.MaskedDense

/-- The reference's last stage is the masked dense layer of its four arguments. -/
theorem stage_eq (x0 : (⟨S16384x3072, .f32⟩ : BufTy).Contents (Elt Ideal)) (x1 : (⟨S3072x3072, .f32⟩ : BufTy).Contents (Elt Ideal))
    (x2 : (⟨S3072, .f32⟩ : BufTy).Contents (Elt Ideal)) (x3 : (⟨S3072x3072, .f32⟩ : BufTy).Contents (Elt Ideal)) :
    val_main_v5 (F := Ideal) x0 x1 x2 x3 = maskedDense x0 x1 x2 x3 := by
  funext i
  have el : ∀ k : Fin 3072, lidx_main_v2 i k = ix2 (i 0) k := fun k =>
    funext fun a => Fin.ext (by match a with | ⟨0, _⟩ => rfl | ⟨1, _⟩ => rfl)
  have er : ∀ k : Fin 3072, ridx_main_v2 i k = ix2 k (i 1) := fun k =>
    funext fun a => Fin.ext (by match a with | ⟨0, _⟩ => rfl | ⟨1, _⟩ => rfl)
  have et : ∀ k : Fin 3072, idx_main_v0 (ix2 k (i 1)) = ix2 (i 1) k := fun k =>
    funext fun a => Fin.ext (by match a with | ⟨0, _⟩ => rfl | ⟨1, _⟩ => rfl)
  have eb : idx_main_v3 (idx_main_v4 i) = ix1 (i 1) :=
    funext fun a => Fin.ext (by match a with | ⟨0, _⟩ => rfl)
  rw [val_main_v5_apply, val_main_v2_apply, val_main_v4_apply, val_main_v3_apply, eb, Ideal.addf_def]
  unfold maskedDense
  refine congrArg₂ (· + ·) (Finset.sum_congr rfl fun k _ => ?_) rfl
  rw [el k, er k]
  refine congrArg₂ (· * ·) rfl ?_
  refine (val_main_v1_apply (F := Ideal) x1 x3 (ix2 k (i 1))).trans ?_
  rw [val_main_v0_apply, et k, Ideal.mulf_def]
  rfl

variable (m : (ℓ : Loc nD τ sig) → Buf (Elt Ideal) ℓ) (ρ : Dev nD → PrngReg)

/-- The reference's run: it terminates without a fault, its result is the masked dense layer of the launched arrays,
    and the arguments end as launched. -/
theorem run : θ_run defs (onTc (τ := τ) (main (F := Ideal))) ⟨m, fun _ => 0, ρ⟩ (fun r => ∀ c : Dev nD,
      r.2.mem ((c.tc : Thread nD τ).loc main_v5)
        = maskedDense (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun r h c => ⟨(h c).1.trans ((val_main_v5_eq (F := Ideal) _ _ _ _).trans (stage_eq _ _ _ _)), (h c).2⟩)
    (Cert.ReferenceIdeal.Value.run (F := Ideal) m ρ)

end Cert.ReferenceIdeal.RefValue

end
-- ==== Proof.lean ====
/-
  A dense layer against a masked weight: out = x · w_eff + b with w_eff(d, u) = mask(u, d) · w(d, u), for
  x : 16384×3072, w and mask : 3072×3072, b : 3072.

  The kernel program forms w_eff in a first kernel (twelve row slabs of 256 rows, each the transposed mask slab times
  the weight slab, rounded to a narrower float format), lays b out as a row, and in a second kernel (sixty-four row
  slabs of 256 rows of x) takes the product of each slab of x, rounded to the narrower format, with the whole w_eff,
  accumulating from zero, and adds the bias row. The reference transposes the mask, multiplies by the weight, takes
  one whole product and adds the broadcast bias. Over the extended reals the roundings are the identity and a matrix
  product is the sum over the contracted axis whatever its tiling, so both results are, at (r, u),

      Σ_d x(r, d) · (mask(u, d) · w(d, u)) + b(u)

  — the same terms in the same grouping; no finiteness of the inputs is used. The ideal pass rewrote nothing, so
  that the idealized kernel is the kernel's idealization needs no argument.

  The modules: Spec (the function above), MaskedWeight and ProductBias (what each kernel region leaves in its output
  array, from the arrays it finds), KernelRun (the two regions and the host operation between them chained, the result
  read as the function above), ReferenceValue (the reference's result read as the same function).
-/
import proofs.«175636_j25434796327644_2_alg».proof.Defs
import proofs.«175636_j25434796327644_2_alg».proof.Proof.Gen.Kernel
import proofs.«175636_j25434796327644_2_alg».proof.Proof.Gen.Kernel.Skeleton
import proofs.«175636_j25434796327644_2_alg».proof.Proof.Gen.Kernel.Launch
import proofs.«175636_j25434796327644_2_alg».proof.Proof.Gen.Kernel.Points
import proofs.«175636_j25434796327644_2_alg».proof.Proof.Gen.Kernel.Frame
import proofs.«175636_j25434796327644_2_alg».proof.Proof.Gen.KernelIdeal
import proofs.«175636_j25434796327644_2_alg».proof.Proof.Gen.KernelIdeal.Skeleton
import proofs.«175636_j25434796327644_2_alg».proof.Proof.Gen.KernelIdeal.Launch
import proofs.«175636_j25434796327644_2_alg».proof.Proof.Gen.KernelIdeal.Points
import proofs.«175636_j25434796327644_2_alg».proof.Proof.Gen.KernelIdeal.Frame
import proofs.«175636_j25434796327644_2_alg».proof.Proof.Gen.ReferenceIdeal
import proofs.«175636_j25434796327644_2_alg».proof.Proof.Gen.Pre_finite_inputs
import proofs.«175636_j25434796327644_2_alg».proof.Proof.Gen.ReferenceIdeal.Run
import proofs.«175636_j25434796327644_2_alg».proof.Proof.Gen.ReferenceIdeal.Read
import proofs.«175636_j25434796327644_2_alg».proof.Proof.KernelRun
import proofs.«175636_j25434796327644_2_alg».proof.Proof.ReferenceValue
import Idealize.ShloMosaic.Adequacy
import Idealize.ShloMosaic.Init

noncomputable section

namespace Cert.Proof

open Idealize.ShloMosaic Idealize.ShloMosaic.TcCoe Idealize.SL.Sem Cert.MaskedDense

/-- The kernel program, read at the word level, terminates without a fault and leaves its arguments as launched. -/
theorem frame_kernel : Cert.frame_Kernel := fun m ρ _ => Cert.Kernel.Gen.frame m ρ

/-- The same for the idealized kernel program. -/
theorem frame_kernel_ideal : Cert.frame_KernelIdeal := fun m ρ _ => Cert.KernelIdeal.Gen.frame m ρ

/-- The reference terminates without a fault and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to its idealization. -/
theorem preserves : Cert.preserves_Kernel_KernelIdeal := trivial

/-- From memories that agree on the four arguments both programs end with the masked dense layer of those
    arguments in their result. -/
theorem algebraic : Cert.algebraic_KernelIdeal_ReferenceIdeal := by
  intro m ρ m' ρ' _ hagree
  refine ⟨fun c => maskedDense (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
